-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x2048 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x65536 : Shape := ⟨2, ![1024, 65536]⟩
abbrev S1024x128 : Shape := ⟨2, ![1024, 128]⟩
abbrev S65536x128 : Shape := ⟨2, ![65536, 128]⟩
abbrev S_ : Shape := ⟨0, ![]⟩

class Facts : Prop where
  bcast_S_S1024x65536 : S_.BroadcastsInDim S1024x65536 (![] : Fin 0 → Fin S1024x65536.rank)
  reducesTo_S1024x65536_S_d0_1 : S1024x65536.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S65536x128 : S_.BroadcastsInDim S65536x128 (![] : Fin 0 → Fin S65536x128.rank)
  reducesTo_S65536x128_S_d0_1 : S65536x128.ReducesTo [0, 1] S_

variable [Facts]

def fn_part1 {F : FTy → Type} [FloatOps F] (main_v13 : IVec S_ 1) (main_v16 : IVec S65536x128 1) : IVec S_ 1 :=
  let main_c_5 : IVec S_ 1 := constantI S_ 1 1#1
  let main_v17 : IVec S_ 1 := (fun x v => Host.reduce IntOp.andi x v reducesTo_S65536x128_S_d0_1 h_S_) main_v16 main_c_5
  let main_v18 : IVec S_ 1 := andi main_v13 main_v17
  main_v18

def fn {F : FTy → Type} [FloatOps F] (main_arg0 : FVec F S1024x65536 .f32) (main_arg1 : FVec F S1024x128 .f32) (main_arg2 : FVec F S1024x128 .f32) (main_arg3 : FVec F S65536x128 .f32) : IVec S_ 1 :=
  let main_v0 : FVec F S1024x65536 .f32 := Host.absf main_arg0
  let main_cst : FVec F S_ .f32 := constant S_ .f32 0x7F800000#32
  let main_v1 : FVec F S1024x65536 .f32 := broadcastInDim S1024x65536 ![] bcast_S_S1024x65536 main_cst
  let main_v2 : IVec S1024x65536 1 := cmpf .olt main_v0 main_v1
  let main_c : IVec S_ 1 := constantI S_ 1 1#1
  let main_v3 : IVec S_ 1 := (fun x v => Host.reduce IntOp.andi x v reducesTo_S1024x65536_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S1024x128 .f32 := Host.absf main_arg2
  let main_cst_2 : FVec F S_ .f32 := constant S_ .f32 0x7F800000#32
  let main_v10 : FVec F S1024x128 .f32 := broadcastInDim S1024x128 ![] bcast_S_S1024x128 main_cst_2
  let main_v11 : IVec S1024x128 1 := cmpf .olt main_v9 main_v10
  let main_c_3 : IVec S_ 1 := constantI S_ 1 1#1
  let main_v12 : IVec S_ 1 := (fun x v => Host.reduce IntOp.andi x v reducesTo_S1024x128_S_d0_1 h_S_) main_v11 main_c_3
  let main_v13 : IVec S_ 1 := andi main_v8 main_v12
  let main_v14 : FVec F S65536x128 .f32 := Host.absf main_arg3
  let main_cst_4 : FVec F S_ .f32 := constant S_ .f32 0x7F800000#32
  let main_v15 : FVec F S65536x128 .f32 := broadcastInDim S65536x128 ![] bcast_S_S65536x128 main_cst_4
  let main_v16 : IVec S65536x128 1 := cmpf .olt main_v14 main_v15
  fn_part1 (F := F) main_v13 main_v16
-- ==== Kernel.lean ====
abbrev S1024x65536 : Shape := ⟨2, ![1024, 65536]⟩
abbrev S1024x128 : Shape := ⟨2, ![1024, 128]⟩
abbrev S65536x128 : Shape := ⟨2, ![65536, 128]⟩
abbrev S1024x256 : Shape := ⟨2, ![1024, 256]⟩
abbrev S2x1024x128 : Shape := ⟨3, ![2, 1024, 128]⟩
abbrev S1024x2048 : Shape := ⟨2, ![1024, 2048]⟩
abbrev S2048x128 : Shape := ⟨2, ![2048, 128]⟩
abbrev S1x1024x128 : Shape := ⟨3, ![1, 1024, 128]⟩
abbrev S2048x256 : Shape := ⟨2, ![2048, 256]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S1024x65536, .f32⟩
  | .hbm, ⟨1, _⟩ => ⟨S1024x128, .f32⟩
  | .hbm, ⟨2, _⟩ => ⟨S1024x128, .f32⟩
  | .hbm, ⟨3, _⟩ => ⟨S65536x128, .f32⟩
  | .hbm, ⟨4, _⟩ => ⟨S1024x256, .f32⟩
  | .hbm, ⟨5, _⟩ => ⟨S2x1024x128, .f32⟩
  | .hbm, ⟨6, _⟩ => ⟨S_, .f32⟩
  | .hbm, ⟨7, _⟩ => ⟨S1024x128, .f32⟩
  | .local _ .vmem, ⟨0, _⟩ => ⟨S1024x2048, .f32⟩
  | .local _ .vmem, ⟨1, _⟩ => ⟨S1024x2048, .f32⟩
  | .local _ .vmem, ⟨2, _⟩ => ⟨S1024x256, .f32⟩
  | .local _ .vmem, ⟨3, _⟩ => ⟨S2048x128, .f32⟩
  | .local _ .vmem, ⟨4, _⟩ => ⟨S2048x128, .f32⟩
  | .local _ .vmem, ⟨5, _⟩ => ⟨S1x1024x128, .f32⟩
  | .local _ .vmem, ⟨6, _⟩ => ⟨S1x1024x128, .f32⟩
  | _, _ => ⟨S1024x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  concatenates_S1024x128_S1024x128_S1024x256_d1 : Shape.Concatenates [S1024x128, S1024x128] S1024x256 1
  inb_S1024x2048_S1024x2048_0_0 : ∀ a, (![0, 0] : Fin 2 → Nat) a + S1024x2048.size a ≤ S1024x2048.size a
  h_S1024x2048 : 0 < S1024x2048.numel
  inb_S2048x128_S2048x128_0_0 : ∀ a, (![0, 0] : Fin 2 → Nat) a + S2048x128.size a ≤ S2048x128.size a
  h_S2048x128 : 0 < S2048x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  bitsLt_bf16_f32 : FTy.bits .bf16 < FTy.bits .f32
  slices_S2048x256_o0_0_S2048x128 : S2048x256.Slices ![0, 0] S2048x128
  slices_S2048x256_o0_128_S2048x128 : S2048x256.Slices ![0, 128] S2048x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  shapeCasts_S1024x128_S1x1024x128 : S1024x128.ShapeCasts S1x1024x128
  reducesTo_S2x1024x128_S1024x128_d0 : S2x1024x128.ReducesTo [0] S1024x128
  h_S_ : 0 < S_.numel
  dot_S1024x2048_S1024x256_S2048x256_0_0_1_1_n_n_wf : DotDims.WF S1024x2048 S1024x256 S2048x256 [0] [0] [1] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x65536.size a
  hwx0_0 : ∀ i : grid0.Coords, EltTy.bits .f32 = 32 ∨ (Rect.block (s := S1024x65536) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x1024x128.size a
  hwx0_3 : ∀ i : grid0.Coords, EltTy.bits .f32 = 32 ∨ (Rect.block (s := S2x1024x128) S1x1024x128.size (cc0_transform_3 i) (hinb0_3 i)).WholeWords (EltTy.packing .f32)

variable [Facts₀]

def dot_S1024x2048_S1024x256_S2048x256_0_0_1_1_n_n : DotDims S1024x2048 S1024x256 S2048x256 where
  lhsContracting := [0]
  rhsContracting := [0]
  lhsNonContracting := [1]
  rhsNonContracting := [1]
  lhsBatch := []
  rhsBatch := []
  wf := dot_S1024x2048_S1024x256_S2048x256_0_0_1_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x65536 : Shape := ⟨2, ![1024, 65536]⟩
abbrev S1024x128 : Shape := ⟨2, ![1024, 128]⟩
abbrev S65536x128 : Shape := ⟨2, ![65536, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x65536, .f32⟩
  | .hbm, ⟨1, _⟩ => ⟨S1024x128, .f32⟩
  | .hbm, ⟨2, _⟩ => ⟨S1024x128, .f32⟩
  | .hbm, ⟨3, _⟩ => ⟨S65536x128, .f32⟩
  | .hbm, ⟨4, _⟩ => ⟨S65536x128, .f32⟩
  | .hbm, ⟨5, _⟩ => ⟨S65536x128, .f32⟩
  | .hbm, ⟨6, _⟩ => ⟨S_, .f32⟩
  | .hbm, ⟨7, _⟩ => ⟨S65536x128, .f32⟩
  | .hbm, ⟨8, _⟩ => ⟨S65536x128, .f32⟩
  | .hbm, ⟨9, _⟩ => ⟨S65536x128, .f32⟩
  | .hbm, ⟨10, _⟩ => ⟨S65536x128, .f32⟩
  | .hbm, ⟨11, _⟩ => ⟨S1024x128, .f32⟩
  | _, _ => ⟨S1024x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  dot_S1024x65536_S1024x128_S65536x128_0_0_1_1_n_n_wf : DotDims.WF S1024x65536 S1024x128 S65536x128 [0] [0] [1] [1] [] []
  dot_S1024x65536_S65536x128_S1024x128_1_0_0_1_n_n_wf : DotDims.WF S1024x65536 S65536x128 S1024x128 [1] [0] [0] [1] [] []

variable [Facts₀]

def dot_S1024x65536_S1024x128_S65536x128_0_0_1_1_n_n : DotDims S1024x65536 S1024x128 S65536x128 where
  lhsContracting := [0]
  rhsContracting := [0]
  lhsNonContracting := [1]
  rhsNonContracting := [1]
  lhsBatch := []
  rhsBatch := []
  wf := dot_S1024x65536_S1024x128_S65536x128_0_0_1_1_n_n_wf
def dot_S1024x65536_S65536x128_S1024x128_1_0_0_1_n_n : DotDims S1024x65536 S65536x128 S1024x128 where
  lhsContracting := [1]
  rhsContracting := [0]
  lhsNonContracting := [0]
  rhsNonContracting := [1]
  lhsBatch := []
  rhsBatch := []
  wf := dot_S1024x65536_S65536x128_S1024x128_1_0_0_1_n_n_wf

class Facts : Prop extends Facts₀ where

variable [Facts]
-- ==== Proof.Spec.lean ====
/-
  The memory write-then-read as one function of the four argument arrays, on the extended reals.

  With `A` the addressing weights [1024, 65536], `E` and `D` the erase and add vectors [1024, 128] and `C` the memory
  [65536, 128]: row `n` of the memory is rewritten to `C n j * (1 - ∑ b, A b n * E b j) + ∑ b, A b n * D b j`, and the
  result at `(b, j)` is `∑ n, A b n * (rewritten row n at j)`.

  The same sum cut into 32 tiles of 2048 rows: `part t` is tile `t`'s share of the result, and `acc n` the running sum of
  the shares of the tiles `16 * (n / 16) … n` — what an accumulator restarted at every 16th tile holds after tile `n`.
  `pass3` is a batch contraction written as three passes, the second and third over differences `x - x`; on finite
  entries those vanish.
-/
import Idealize.ShloMosaic.PureOps.Ideal
import Idealize.ShloMosaic.Lib.ValueIdx

noncomputable section

namespace Cert.Spec

open Idealize.ShloMosaic Idealize.ShloMosaic.ValueIdx
open scoped BigOperators

/-- The literal `1.0` both programs subtract the erase weight from (the same word on both sides: never evaluated). -/
abbrev one : EReal := Ideal.ofBits .f32 0x3F800000#32

section whole

variable (A : (⟨2, ![1024, 65536]⟩ : Shape).Idx → EReal) (E D : (⟨2, ![1024, 128]⟩ : Shape).Idx → EReal)
  (C : (⟨2, ![65536, 128]⟩ : Shape).Idx → EReal)

/-- The batch contraction `∑ b, A b n * X b j`: how much of `X` memory row `n` receives. -/
def agg (X : (⟨2, ![1024, 128]⟩ : Shape).Idx → EReal) (n : Fin 65536) (j : Fin 128) : EReal :=
  ∑ b : Fin 1024, A (ix2 b n) * X (ix2 b j)

/-- Memory row `n` after the write. -/
def written (n : Fin 65536) (j : Fin 128) : EReal :=
  C (ix2 n j) * (one - agg A E n j) + agg A D n j

/-- The read after the write, at batch row `b` and lane `j`. -/
def read (b : Fin 1024) (j : Fin 128) : EReal :=
  ∑ n : Fin 65536, A (ix2 b n) * written A E D C n j

/-- The result array. -/
def G : (⟨2, ![1024, 128]⟩ : Shape).Idx → EReal := fun i => read A E D C (i 0) (i 1)

/-- Memory row `k` of tile `t` (2048 rows a tile; `t < 32`, `k < 2048` in every use). -/
def row (t k : ℕ) : Fin 65536 := ⟨(t * 2048 + k) % 65536, Nat.mod_lt _ (by norm_num)⟩

/-- Tile `t`'s share of the read. -/
def part (t : ℕ) (b : Fin 1024) (j : Fin 128) : EReal :=
  ∑ k : Fin 2048, A (ix2 b (row t k)) * written A E D C (row t k) j

/-- The running sum after tile `n` of an accumulator restarted at every 16th tile. -/
def acc (n : ℕ) (b : Fin 1024) (j : Fin 128) : EReal :=
  ∑ s ∈ Finset.range (n % 16 + 1), part A E D C (n / 16 * 16 + s) b j

end whole

/-- Lane `j` of the first half of a 256-lane row, and of the second. -/
def lo (j : Fin 128) : Fin 256 := ⟨j.val, by omega⟩
def hi (j : Fin 128) : Fin 256 := ⟨128 + j.val, by omega⟩

/-- A batch contraction over one tile written as three passes: the plain one, one against `x2 - x2`, one of
    `x0 - x0`. -/
def pass3 (x0 : (⟨2, ![1024, 2048]⟩ : Shape).Idx → EReal) (x2 : (⟨2, ![1024, 256]⟩ : Shape).Idx → EReal)
    (k : Fin 2048) (j : Fin 256) : EReal :=
  (∑ b : Fin 1024, x0 (ix2 b k) * x2 (ix2 b j)) + (∑ b : Fin 1024, x0 (ix2 b k) * (x2 (ix2 b j) - x2 (ix2 b j)))
    + (∑ b : Fin 1024, (x0 (ix2 b k) - x0 (ix2 b k)) * x2 (ix2 b j))

/-- One tile's step: the running value `o` plus the tile's share, the memory rows rewritten from the three-pass
    contractions. -/
def step (x0 : (⟨2, ![1024, 2048]⟩ : Shape).Idx → EReal) (x1 : (⟨2, ![2048, 128]⟩ : Shape).Idx → EReal)
    (x2 : (⟨2, ![1024, 256]⟩ : Shape).Idx → EReal) (o : EReal) (b : Fin 1024) (j : Fin 128) : EReal :=
  o + ∑ k : Fin 2048, x0 (ix2 b k) * (x1 (ix2 k j) * (one - pass3 x0 x2 k (lo j)) + pass3 x0 x2 k (hi j))

end Cert.Spec

end
-- ==== Proof.RefValue.lean ====
/-
  The reference computes the specification: its last stage, read index by index, is `Spec.G` of the four arguments.
  Both batch contractions are sums over the batch row, the broadcast constant is the literal `1.0`, and the final
  contraction is the sum over the 65536 memory rows.
-/
import proofs.«131081_j68324339745366_2_alg».proof.Proof.Gen.ReferenceIdeal.Read
import proofs.«131081_j68324339745366_2_alg».proof.Proof.Spec

noncomputable section

namespace Cert.ReferenceIdeal.RefValue

open Cert.ReferenceIdeal Cert.ReferenceIdeal.Read Idealize.ShloMosaic Idealize.ShloMosaic.ValueIdx

/-- The operand indices of the two batch contractions at memory row `n`, lane `j`, batch row `b`. -/
theorem lidx_v0 (n : Fin 65536) (j : Fin 128) (b : Fin 1024) : lidx_main_v0 (ix2 n j) b = ix2 b n :=
  funext fun a => Fin.ext (by match a with | ⟨0, _⟩ => rfl | ⟨1, _⟩ => rfl)
theorem ridx_v0 (n : Fin 65536) (j : Fin 128) (b : Fin 1024) : ridx_main_v0 (ix2 n j) b = ix2 b j :=
  funext fun a => Fin.ext (by match a with | ⟨0, _⟩ => rfl | ⟨1, _⟩ => rfl)
theorem lidx_v1 (n : Fin 65536) (j : Fin 128) (b : Fin 1024) : lidx_main_v1 (ix2 n j) b = ix2 b n :=
  funext fun a => Fin.ext (by match a with | ⟨0, _⟩ => rfl | ⟨1, _⟩ => rfl)
theorem ridx_v1 (n : Fin 65536) (j : Fin 128) (b : Fin 1024) : ridx_main_v1 (ix2 n j) b = ix2 b j :=
  funext fun a => Fin.ext (by match a with | ⟨0, _⟩ => rfl | ⟨1, _⟩ => rfl)
/-- The operand indices of the read at batch row `b`, lane `j`, memory row `n`. -/
theorem lidx_v6 (b : Fin 1024) (j : Fin 128) (n : Fin 65536) : lidx_main_v6 (ix2 b j) n = ix2 b n :=
  funext fun a => Fin.ext (by match a with | ⟨0, _⟩ => rfl | ⟨1, _⟩ => rfl)
theorem ridx_v6 (b : Fin 1024) (j : Fin 128) (n : Fin 65536) : ridx_main_v6 (ix2 b j) n = ix2 n j :=
  funext fun a => Fin.ext (by match a with | ⟨0, _⟩ => rfl | ⟨1, _⟩ => rfl)

/-- Memory row `n` after the reference's write is the specification's. -/
theorem written_eq (A : FVec Ideal S1024x65536 .f32) (E D : FVec Ideal S1024x128 .f32) (C : FVec Ideal S65536x128 .f32)
    (n : Fin 65536) (j : Fin 128) :
    val_main_v5 (F := Ideal) A E D C (ix2 n j) = Cert.Spec.written A E D C n j := by
  rw [val_main_v5_apply, val_main_v4_apply, val_main_v3_apply, val_main_v2_apply, val_main_cst_apply, val_main_v0_apply,
    val_main_v1_apply]
  simp only [lidx_v0, ridx_v0, lidx_v1, ridx_v1]
  rfl

/-- The reference's result is the specification. -/
theorem result_eq (A : FVec Ideal S1024x65536 .f32) (E D : FVec Ideal S1024x128 .f32) (C : FVec Ideal S65536x128 .f32) :
    val_main_v6 (F := Ideal) A E D C = Cert.Spec.G A E D C := by
  funext i
  obtain ⟨b, j, rfl⟩ : ∃ (b : Fin 1024) (j : Fin 128), i = ix2 b j := ⟨i 0, i 1, eq_ix2 i⟩
  rw [val_main_v6_apply]
  show _ = ∑ n : Fin 65536, A (ix2 b n) * Cert.Spec.written A E D C n j
  refine Finset.sum_congr rfl fun n _ => ?_
  rw [lidx_v6, ridx_v6, written_eq]

end Cert.ReferenceIdeal.RefValue

end
-- ==== Proof.Finite.lean ====
/-
  From the stated finiteness of the four argument arrays to real entries.

  The predicate is the conjunction, over the four arrays, of "every entry has absolute value below +∞". A conjunction
  of one-bit words that is 1 has every conjunct 1; an all-axes reduction by "and" that is 1 had a 1 at every index; and
  an extended real with `max x (-x) < ⊤` is neither `⊤` nor `⊥`, hence a real number.
-/
import proofs.«131081_j68324339745366_2_alg».proof.Pre_finite_inputs
import Idealize.ShloMosaic.Lib.ReduceAll
import Idealize.ShloMosaic.Lib.ValueIdx

noncomputable section

namespace Cert.Finite

open Idealize.ShloMosaic
open Cert.Pre_finite_inputs

/-- The rank-0 shape has one index. -/
instance : Subsingleton S_.Idx := ⟨fun a b => funext fun d => d.elim0⟩

/-- An extended real whose absolute value compares below the pattern of +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One array: if the all-axes "and" of `|x| < +∞` is 1, every entry of `x` is a real number. -/
theorem all_real {s : Shape} (x : FVec Ideal s .f32) (hb : S_.BroadcastsInDim s (![] : Fin 0 → Fin s.rank))
    {axes : List (Fin s.rank)} (hr : s.ReducesTo axes S_) (hu : 0 < S_.numel)
    (h : Host.reduce IntOp.andi
        (cmpf .olt (Host.absf x) (broadcastInDim s ![] hb (constant (F := Ideal) S_ .f32 0x7F800000#32)))
        (constantI S_ 1 1#1) hr hu ValueIdx.ix0 = 1#1) (i : s.Idx) : ∃ r : ℝ, x i = (r : EReal) :=
  real_of_abs_lt_inf (x i) (Host.reduce_andi_all _ _ hr hu _ h i)

/-- Under the stated predicate every entry of each of the four arrays is a real number. -/
theorem entries_real [Cert.Pre_finite_inputs.Facts] (a : FVec Ideal Cert.Pre_finite_inputs.S1024x65536 .f32)
    (e d : FVec Ideal Cert.Pre_finite_inputs.S1024x128 .f32) (c : FVec Ideal Cert.Pre_finite_inputs.S65536x128 .f32)
    (h : Cert.Pre_finite_inputs.fn (F := Ideal) a e d c = fun _ => 1#1) :
    (∀ i, ∃ r : ℝ, a i = (r : EReal)) ∧ (∀ i, ∃ r : ℝ, e i = (r : EReal)) ∧ (∀ i, ∃ r : ℝ, d i = (r : EReal))
      ∧ (∀ i, ∃ r : ℝ, c i = (r : EReal)) := by
  have h0 := congrFun h ValueIdx.ix0
  dsimp only [fn, fn_part1, andi] at h0
  rw [IntOp.andi_eq_one, IntOp.andi_eq_one, IntOp.andi_eq_one] at h0
  obtain ⟨⟨⟨ha, he⟩, hd⟩, hc⟩ := h0
  exact ⟨all_real a _ _ _ ha, all_real e _ _ _ he, all_real d _ _ _ hd, all_real c _ _ _ hc⟩

end Cert.Finite

end
-- ==== Proof.Cases.lean ====
/-
  What one grid point leaves in the output block, as a value: at a point that continues a group of 16 tiles the body
  stores its one payload computed from the three input blocks and from what the block held; at a point that starts a
  group it first stores the zero block and then the same payload computed over that zero block. Both at any float
  instance.
-/
import proofs.«131081_j68324339745366_2_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.ShloMosaic.Tactic Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that continues a group: the output block holding `xo` ends at the payload of the input blocks and `xo`
    (the one store covers the block; its loads read whole buffers). -/
theorem out_B (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x128 .f32) (h4 : a4.IsWhole)
    (a5 : Memref sig .tc .vmem S1x1024x128 .f32) (h5 : a5.IsWhole) (hc : ¬cond0_0 i)
    (x0 : Vec F S1024x2048 .f32) (x1 : Vec F S1024x256 .f32) (x2 : Vec F S2048x128 .f32) (xo : Vec F S1x1024x128 .f32) :
    out0_B_3 c i a2 h2 a3 h3 a4 h4 a5 h5 hc x0 x1 x2 xo = k0_pay2 x0 x2 x1 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S1024x2048) hz2, View.ld_unit_zero (S := S2048x128) hz2,
    View.ld_unit_zero (S := S1024x256) hz2, View.ld_unit_zero (S := S1x1024x128) hz3]

/-- A point that starts a group: the zero block is stored and read back, so the block ends at the payload of the
    input blocks and the zero block. -/
theorem out_A (c : Dev nD) (i : grid0.Coords) (a2 : Memref sig .tc .vmem S1024x2048 .f32) (h2 : a2.IsWhole)
    (a3 : Memref sig .tc .vmem S1024x256 .f32) (h3 : a3.IsWhole) (a4 : Memref sig .tc .vmem S2048x128 .f32) (h4 : a4.IsWhole)
    (a5 : Memref sig .tc .vmem S1x1024x128 .f32) (h5 : a5.IsWhole) (hc : cond0_0 i)
    (x0 : Vec F S1024x2048 .f32) (x1 : Vec F S1024x256 .f32) (x2 : Vec F S2048x128 .f32) :
    out0_A_3 c i a2 h2 a3 h3 a4 h4 a5 h5 hc x0 x1 x2 = k0_pay2 x0 x2 x1 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1024x128) hz3, View.readCov_unit_zero (S := S1x1024x128) _ hz3]
  simp only [View.readAt_eq_ld, h2.read_unread, h3.read_unread, h4.read_unread,
    View.ld_unit_zero (S := S1024x2048) hz2, View.ld_unit_zero (S := S2048x128) hz2,
    View.ld_unit_zero (S := S1024x256) hz2]

end Cert.KernelIdeal.Cases

end
-- ==== Proof.Blocks.lean ====
/-
  The input blocks of grid point `t`, read at an index. The 32 points are the 32 tiles of 2048 memory rows in order:
  the weights' block is columns `2048 t … 2048 t + 2047` of `A`, the memory's block rows `2048 t … 2048 t + 2047` of
  `C`, and the third block is always the whole [1024, 256] array that the program builds before the launch by laying
  `E` and `D` side by side: lanes `0 … 127` are `E`, lanes `128 … 255` are `D`.
-/
import proofs.«131081_j68324339745366_2_alg».proof.Proof.Gen.KernelIdeal.Frame
import proofs.«131081_j68324339745366_2_alg».proof.Proof.Spec
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block indices of the four windows at every grid point (decided over the 32 points). -/
theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val / 16 ∧ win0_3.index t 1 = 0 ∧ win0_3.index t 2 = 0 :=
  (by decide +kernel : ∀ t : Fin grid0.N, win0_3.index t 0 = t.val / 16 ∧ win0_3.index t 1 = 0 ∧ win0_3.index t 2 = 0)

/-- The weights' block at point `t`: entry `(b, k)` is `A` at batch row `b`, memory row `k` of tile `t`. -/
theorem iblk0_apply (c : Dev nD) (t : Fin cfg0.N) (b : Fin 1024) (k : Fin 2048) :
    (iblk m c 0 t : Vec F S1024x2048 .f32) (ix2 b k)
      = m ((c : Thread nD τ).loc main_arg0) (ix2 b (Cert.Spec.row t.val k.val)) := by
  have hN : t.val < 32 := lt_of_lt_of_eq t.isLt N_0
  unfold iblk
  rw [View.read_apply]
  show V m c main_arg0 _ = _
  rw [V_main_arg0]
  congr 1
  funext a
  apply Fin.ext
  match a with
  | ⟨0, _⟩ => show win0_0.index t 0 * 1024 + 1 * b.val = b.val; rw [(idx0 t).1]; omega
  | ⟨1, _⟩ => show win0_0.index t 1 * 2048 + 1 * k.val = (t.val * 2048 + k.val) % 65536; rw [(idx0 t).2]; omega

/-- The memory's block at point `t`: entry `(k, j)` is `C` at memory row `k` of tile `t`, lane `j`. -/
theorem iblk2_apply (c : Dev nD) (t : Fin cfg0.N) (k : Fin 2048) (j : Fin 128) :
    (iblk m c 2 t : Vec F S2048x128 .f32) (ix2 k j)
      = m ((c : Thread nD τ).loc main_arg3) (ix2 (Cert.Spec.row t.val k.val) j) := by
  have hN : t.val < 32 := lt_of_lt_of_eq t.isLt N_0
  unfold iblk
  rw [View.read_apply]
  show V m c main_arg3 _ = _
  rw [V_main_arg3]
  congr 1
  funext a
  apply Fin.ext
  match a with
  | ⟨0, _⟩ => show win0_2.index t 0 * 2048 + 1 * k.val = (t.val * 2048 + k.val) % 65536; rw [(idx2 t).1]; omega
  | ⟨1, _⟩ => show win0_2.index t 1 * 128 + 1 * j.val = j.val; rw [(idx2 t).2]; omega

/-- What the launch finds in the [1024, 256] buffer: `E` and `D` laid side by side along the lanes. -/
theorem V_sideBySide (c : Dev nD) :
    (V m c main_v0 : S1024x256.Idx → F .f32)
      = concatenate S1024x256 1 [⟨S1024x128, m ((c : Thread nD τ).loc main_arg1)⟩, ⟨S1024x128, m ((c : Thread nD τ).loc main_arg2)⟩]
          Facts₀.concatenates_S1024x128_S1024x128_S1024x256_d1 := by
  show StableHlo.after hostOps0 (fun b => m (c, b)) (Proc.devRef .tc main_v0) = _
  after_results

/-- Two [1024, 128] arrays laid side by side along the lanes, read at an index whose lane is below 128: the first. -/
theorem side_lo {α : Type} (e d : S1024x128.Idx → α) (h : Shape.Concatenates [S1024x128, S1024x128] S1024x256 1)
    (i : S1024x256.Idx) (b : Fin 1024) (j : Fin 128) (h0 : (i 0).val = b.val) (h1 : (i 1).val = j.val) :
    concatenate S1024x256 1 [⟨S1024x128, e⟩, ⟨S1024x128, d⟩] h i = e (ix2 b j) :=
  concatenate_pair_apply_left (1 : Fin 2) e d h i rfl (ix2 b j) fun a => by
    match a with
    | ⟨0, _⟩ => exact h0.symm
    | ⟨1, _⟩ => exact h1.symm

/-- And at an index whose lane is `128 + j`: the second at lane `j`. -/
theorem side_hi {α : Type} (e d : S1024x128.Idx → α) (h : Shape.Concatenates [S1024x128, S1024x128] S1024x256 1)
    (i : S1024x256.Idx) (b : Fin 1024) (j : Fin 128) (h0 : (i 0).val = b.val) (h1 : (i 1).val = 128 + j.val) :
    concatenate S1024x256 1 [⟨S1024x128, e⟩, ⟨S1024x128, d⟩] h i = d (ix2 b j) :=
  concatenate_pair_apply_right (1 : Fin 2) e d h i rfl rfl (ix2 b j)
    (fun a ha => by
      match a with
      | ⟨0, _⟩ => exact h0.symm
      | ⟨1, _⟩ => exact absurd rfl ha)
    (by show j.val + 128 = (i 1).val; omega)

/-- The side-by-side block at any point, first half: entry `(b, j)` for `j < 128` is `E` at `(b, j)`. -/
theorem iblk1_lo (c : Dev nD) (t : Fin cfg0.N) (b : Fin 1024) (j : Fin 128) :
    (iblk m c 1 t : Vec F S1024x256 .f32) (ix2 b (Cert.Spec.lo j)) = m ((c : Thread nD τ).loc main_arg1) (ix2 b j) := by
  unfold iblk
  rw [View.read_apply]
  show V m c main_v0 _ = _
  rw [V_sideBySide]
  refine side_lo _ _ _ _ b j ?_ ?_
  · show win0_1.index t 0 * 1024 + 1 * b.val = b.val; rw [(idx1 t).1]; omega
  · show win0_1.index t 1 * 256 + 1 * j.val = j.val; rw [(idx1 t).2]; omega

/-- Second half: entry `(b, 128 + j)` is `D` at `(b, j)`. -/
theorem iblk1_hi (c : Dev nD) (t : Fin cfg0.N) (b : Fin 1024) (j : Fin 128) :
    (iblk m c 1 t : Vec F S1024x256 .f32) (ix2 b (Cert.Spec.hi j)) = m ((c : Thread nD τ).loc main_arg2) (ix2 b j) := by
  unfold iblk
  rw [View.read_apply]
  show V m c main_v0 _ = _
  rw [V_sideBySide]
  refine side_hi _ _ _ _ b j ?_ ?_
  · show win0_1.index t 0 * 1024 + 1 * b.val = b.val; rw [(idx1 t).1]; omega
  · show win0_1.index t 1 * 256 + 1 * (128 + j.val) = 128 + j.val; rw [(idx1 t).2]; omega

end Cert.KernelIdeal.Blocks

end
-- ==== Proof.Payload.lean ====
/-
  The tile body's two stored values, read at an index.

  The first is the zero array. The second, at `(0, b, j)`, is the running value there plus the tile's share of the
  read: the three contractions over the batch axis add up to `Spec.pass3`, whose two lane halves are the erase and the
  add aggregates of the tile's memory rows, and the last contraction sums the rewritten rows against the weights.
  On the extended reals a change of float format is the identity, so every truncation below reads as its operand.
-/
import proofs.«131081_j68324339745366_2_alg».proof.Proof.Gen.KernelIdeal.Skeleton
import proofs.«131081_j68324339745366_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx
open scoped BigOperators

/-! ## The two contractions at an index -/

/-- Both operands contracted on their first axis: the left operand's index has the contraction coordinate on axis 0 … -/
theorem lhs00_0 (i : S2048x256.Idx) (q : dot_S1024x2048_S1024x256_S2048x256_0_0_1_1_n_n.contr.Idx) :
    (dot_S1024x2048_S1024x256_S2048x256_0_0_1_1_n_n.lhsIdx i q 0).val = (q ⟨0, by decide⟩).val :=
  dot_S1024x2048_S1024x256_S2048x256_0_0_1_1_n_n.lhsIdx_val_of_single rfl i q
/-- … and the output's row on axis 1; -/
theorem lhs00_1 (i : S2048x256.Idx) (q : dot_S1024x2048_S1024x256_S2048x256_0_0_1_1_n_n.contr.Idx) :
    (dot_S1024x2048_S1024x256_S2048x256_0_0_1_1_n_n.lhsIdx i q 1).val = (i 0).val := by
  unfold DotDims.lhsIdx
  rw [dif_neg (show ¬(1 : Fin S1024x2048.rank) ∈ dot_S1024x2048_S1024x256_S2048x256_0_0_1_1_n_n.lhsBatch by decide), dif_pos (show (1 : Fin S1024x2048.rank) ∈ dot_S1024x2048_S1024x256_S2048x256_0_0_1_1_n_n.lhsNonContracting by decide)]
  rfl
/-- the right operand's has the contraction coordinate on axis 0 … -/
theorem rhs00_0 (i : S2048x256.Idx) (q : dot_S1024x2048_S1024x256_S2048x256_0_0_1_1_n_n.contr.Idx) :
    (dot_S1024x2048_S1024x256_S2048x256_0_0_1_1_n_n.rhsIdx i q 0).val = (q ⟨0, by decide⟩).val :=
  dot_S1024x2048_S1024x256_S2048x256_0_0_1_1_n_n.rhsIdx_val_of_single rfl i q
/-- … and the output's column on axis 1. -/
theorem rhs00_1 (i : S2048x256.Idx) (q : dot_S1024x2048_S1024x256_S2048x256_0_0_1_1_n_n.contr.Idx) :
    (dot_S1024x2048_S1024x256_S2048x256_0_0_1_1_n_n.rhsIdx i q 1).val = (i 1).val := by
  unfold DotDims.rhsIdx
  rw [dif_neg (show ¬(1 : Fin S1024x256.rank) ∈ dot_S1024x2048_S1024x256_S2048x256_0_0_1_1_n_n.rhsBatch by decide), dif_pos (show (1 : Fin S1024x256.rank) ∈ dot_S1024x2048_S1024x256_S2048x256_0_0_1_1_n_n.rhsNonContracting by decide)]
  rfl

/-- A product contracting BOTH operands on their first axis, into the zero array: at `(k, j)` the sum over the batch
    row `b` of the left operand at `(b, k)` times the right at `(b, j)`. -/
theorem contract00_apply {φ₁ φ₂ : FTy} (l : FVec Ideal S1024x2048 φ₁) (r : FVec Ideal S1024x256 φ₂) (k : Fin 2048) (j : Fin 256) :
    matmul dot_S1024x2048_S1024x256_S2048x256_0_0_1_1_n_n none l r (constant S2048x256 .f32 0x00000000#32) (ix2 k j)
      = ∑ b : Fin 1024, l (ix2 b k) * r (ix2 b j) := by
  refine (Ideal.matmul_constant_zero_apply dot_S1024x2048_S1024x256_S2048x256_0_0_1_1_n_n none l r (ix2 k j)).trans ?_
  rw [← Equiv.sum_comp (contrEquiv1 dot_S1024x2048_S1024x256_S2048x256_0_0_1_1_n_n 1024 rfl rfl).symm]
  refine Finset.sum_congr rfl fun b _ => ?_
  have hb := contrEquiv1_symm_val dot_S1024x2048_S1024x256_S2048x256_0_0_1_1_n_n 1024 rfl rfl b
  have el : dot_S1024x2048_S1024x256_S2048x256_0_0_1_1_n_n.lhsIdx (ix2 k j) ((contrEquiv1 dot_S1024x2048_S1024x256_S2048x256_0_0_1_1_n_n 1024 rfl rfl).symm b) = ix2 b k := funext fun a => Fin.ext (by
    match a with
    | ⟨0, _⟩ => exact (lhs00_0 _ _).trans hb
    | ⟨1, _⟩ => exact lhs00_1 _ _)
  have er : dot_S1024x2048_S1024x256_S2048x256_0_0_1_1_n_n.rhsIdx (ix2 k j) ((contrEquiv1 dot_S1024x2048_S1024x256_S2048x256_0_0_1_1_n_n 1024 rfl rfl).symm b) = ix2 b j := funext fun a => Fin.ext (by
    match a with
    | ⟨0, _⟩ => exact (rhs00_0 _ _).trans hb
    | ⟨1, _⟩ => exact rhs00_1 _ _)
  rw [el, er]

/-- The left operand's second axis contracted with the right's first: the left operand's index has the output's row on
    axis 0 … -/
theorem lhs10_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- … and the contraction coordinate on axis 1; -/
theorem lhs10_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
/-- the right operand's has the contraction coordinate on axis 0 … -/
theorem rhs10_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
/-- … and the output's column on axis 1. -/
theorem rhs10_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A product contracting the left operand's second axis with the right's first, into the zero array: at `(b, j)` the
    sum over the memory row `k` of the left operand at `(b, k)` times the right at `(k, j)`. -/
theorem contract10_apply {φ₁ φ₂ : FTy} (l : FVec Ideal S1024x2048 φ₁) (r : FVec Ideal S2048x128 φ₂) (b : Fin 1024) (j : Fin 128) :
    matmul dot_S1024x2048_S2048x128_S1024x128_1_0_0_1_n_n none l r (constant S1024x128 .f32 0x00000000#32) (ix2 b j)
      = ∑ k : Fin 2048, l (ix2 b k) * r (ix2 k j) := by
  refine (Ideal.matmul_constant_zero_apply dot_S1024x2048_S2048x128_S1024x128_1_0_0_1_n_n none l r (ix2 b j)).trans ?_
  rw [← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 b j) ((contrEquiv1 dot_S1024x2048_S2048x128_S1024x128_1_0_0_1_n_n 2048 rfl rfl).symm k) = ix2 b k := funext fun a => Fin.ext (by
    match a with
    | ⟨0, _⟩ => exact lhs10_0 _ _
    | ⟨1, _⟩ => exact (lhs10_1 _ _).trans hk)
  have er : dot_S1024x2048_S2048x128_S1024x128_1_0_0_1_n_n.rhsIdx (ix2 b j) ((contrEquiv1 dot_S1024x2048_S2048x128_S1024x128_1_0_0_1_n_n 2048 rfl rfl).symm k) = ix2 k j := funext fun a => Fin.ext (by
    match a with
    | ⟨0, _⟩ => exact (rhs10_0 _ _).trans hk
    | ⟨1, _⟩ => exact rhs10_1 _ _)
  rw [el, er]

/-! ## The first stored value -/

/-- Every entry of the first stored value is the literal zero. -/
theorem pay1_apply (i : S1x1024x128.Idx) : k0_pay1 (F := Ideal) i = 0 := by
  show Ideal.ofBits .f32 0x00000000#32 = 0
  exact Ideal.ofBits_zero_f32

/-! ## The second stored value -/

/-- The three-pass contraction as the body writes it, of the weights `x0` and any `[1024, 256]` operand `y`. -/
def threePass (x0 : FVec Ideal S1024x2048 .f32) (y : FVec Ideal S1024x256 .f32) : FVec Ideal S2048x256 .f32 :=
  addf (addf
      (matmul dot_S1024x2048_S1024x256_S2048x256_0_0_1_1_n_n none (truncf .bf16 x0 bitsLt_bf16_f32) (truncf .bf16 y bitsLt_bf16_f32) (constant S2048x256 .f32 0x00000000#32))
      (matmul dot_S1024x2048_S1024x256_S2048x256_0_0_1_1_n_n none (truncf .bf16 x0 bitsLt_bf16_f32) (truncf .bf16 (subf y y) bitsLt_bf16_f32) (constant S2048x256 .f32 0x00000000#32)))
    (matmul dot_S1024x2048_S1024x256_S2048x256_0_0_1_1_n_n none (truncf .bf16 (subf x0 x0) bitsLt_bf16_f32) (truncf .bf16 y bitsLt_bf16_f32) (constant S2048x256 .f32 0x00000000#32))

/-- At `(k, j)` it is `Spec.pass3`. -/
theorem threePass_apply (x0 : FVec Ideal S1024x2048 .f32) (y : FVec Ideal S1024x256 .f32) (k : Fin 2048) (j : Fin 256) :
    threePass x0 y (ix2 k j) = Cert.Spec.pass3 x0 y k j := by
  unfold threePass Cert.Spec.pass3
  rw [addf_apply, addf_apply, contract00_apply, contract00_apply, contract00_apply]
  rfl

/-- The tile's memory rows after the write, as the body writes them: the memory `x1` times one minus the first lane half
    of the three-pass contraction, plus its second lane half. -/
def rows (x0 : FVec Ideal S1024x2048 .f32) (x1 : FVec Ideal S2048x128 .f32) (y : FVec Ideal S1024x256 .f32) : FVec Ideal S2048x128 .f32 :=
  addf (mulf x1 (subf (broadcast S2048x128 (Scalar.ofBits .f32 0x3F800000#32))
      (extractStridedSlice S2048x128 ![0, 0] (threePass x0 y) slices_S2048x256_o0_0_S2048x128)))
    (extractStridedSlice S2048x128 ![0, 128] (threePass x0 y) slices_S2048x256_o0_128_S2048x128)

/-- Row `k`, lane `j` of them. -/
theorem rows_apply (x0 : FVec Ideal S1024x2048 .f32) (x1 : FVec Ideal S2048x128 .f32) (y : FVec Ideal S1024x256 .f32) (k : Fin 2048) (j : Fin 128) :
    rows x0 x1 y (ix2 k j)
      = x1 (ix2 k j) * (Cert.Spec.one - Cert.Spec.pass3 x0 y k (Cert.Spec.lo j)) + Cert.Spec.pass3 x0 y k (Cert.Spec.hi j) := by
  unfold rows
  rw [addf_apply, mulf_apply, subf_apply, broadcast_apply,
    extractStridedSlice_apply ![0, 0] (threePass x0 y) slices_S2048x256_o0_0_S2048x128 (ix2 k j) (ix2 k (Cert.Spec.lo j))
      (fun a => by match a with | ⟨0, _⟩ => exact (Nat.zero_add _).symm | ⟨1, _⟩ => exact (Nat.zero_add _).symm),
    extractStridedSlice_apply ![0, 128] (threePass x0 y) slices_S2048x256_o0_128_S2048x128 (ix2 k j) (ix2 k (Cert.Spec.hi j))
      (fun a => by match a with | ⟨0, _⟩ => exact (Nat.zero_add _).symm | ⟨1, _⟩ => rfl),
    threePass_apply, threePass_apply]
  rfl

/-- The second stored value at `(0, b, j)` is one tile's step from the running value there. -/
theorem pay2_apply (x0 : Vec Ideal S1024x2048 .f32) (x1 : Vec Ideal S2048x128 .f32) (x2 : Vec Ideal S1024x256 .f32)
    (xo : Vec Ideal S1x1024x128 .f32) (b : Fin 1024) (j : Fin 128) :
    k0_pay2 (F := Ideal) x0 x1 x2 xo (ix3 (0 : Fin 1) b j) = Cert.Spec.step x0 x1 x2 (xo (ix3 (0 : Fin 1) b j)) b j := by
  have h : k0_pay2 (F := Ideal) x0 x1 x2 xo
      = shapeCast S1x1024x128 (addf (shapeCast S1024x128 xo shapeCasts_S1x1024x128_S1024x128)
          (matmul dot_S1024x2048_S2048x128_S1024x128_1_0_0_1_n_n none (truncf .bf16 x0 bitsLt_bf16_f32)
            (truncf .bf16 (rows x0 x1 (shapeCast S1024x256 x2 shapeCasts_S1024x256_S1024x256)) bitsLt_bf16_f32)
            (constant S1024x128 .f32 0x00000000#32))) shapeCasts_S1024x128_S1x1024x128 := rfl
  rw [h, shapeCast_self, shapeCast_ab_1ab_apply, addf_apply, shapeCast_1ab_ab_apply, contract10_apply]
  unfold Cert.Spec.step
  refine congrArg (xo (ix3 (0 : Fin 1) b j) + ·) (Finset.sum_congr rfl fun k _ => ?_)
  rw [truncf_apply, truncf_apply, rows_apply]

end Cert.KernelIdeal.Payload

end
-- ==== Proof.SpecLaws.lean ====
/-
  Algebraic laws of the tiled read on the extended reals.

  The running sum `acc` restarts at every 16th tile and otherwise grows by one tile's share; the whole read is the
  sum of the two running sums at tiles 15 and 31, because the 65536 memory rows split into 32 tiles of 2048 rows.
  A three-pass contraction collapses to its first pass when every entry is a real number, since then `x - x = 0`.
-/
import proofs.«131081_j68324339745366_2_alg».proof.Proof.Spec
import Mathlib.Algebra.BigOperators.Fin
import Mathlib.Data.EReal.Operations

noncomputable section

namespace Cert.Spec

open Idealize.ShloMosaic Idealize.ShloMosaic.ValueIdx
open scoped BigOperators

section whole

variable (A : (⟨2, ![1024, 65536]⟩ : Shape).Idx → EReal) (E D : (⟨2, ![1024, 128]⟩ : Shape).Idx → EReal)
  (C : (⟨2, ![65536, 128]⟩ : Shape).Idx → EReal)

/-- At a tile whose index is a multiple of 16 the running sum holds that tile's share alone. -/
theorem acc_first (n : ℕ) (h : n % 16 = 0) (b : Fin 1024) (j : Fin 128) :
    acc A E D C n b j = 0 + part A E D C n b j := by
  unfold acc
  have h2 : n / 16 * 16 = n := by omega
  rw [h, h2, zero_add, Finset.sum_range_one, add_zero, zero_add]

/-- Away from a restart the running sum grows by the new tile's share. -/
theorem acc_next (n : ℕ) (h : (n + 1) % 16 ≠ 0) (b : Fin 1024) (j : Fin 128) :
    acc A E D C (n + 1) b j = acc A E D C n b j + part A E D C (n + 1) b j := by
  unfold acc
  have h1 : (n + 1) / 16 = n / 16 := by omega
  have h2 : (n + 1) % 16 = n % 16 + 1 := by omega
  have h3 : n / 16 * 16 + (n % 16 + 1) = n + 1 := by omega
  rw [h1, h2, Finset.sum_range_succ, h3]

/-- A sum over the 65536 memory rows is the sum over 32 tiles of the sums over each tile's 2048 rows. -/
theorem sum_rows_eq_sum_tiles (f : Fin 65536 → EReal) :
    ∑ n : Fin 65536, f n = ∑ t ∈ Finset.range 32, ∑ k : Fin 2048, f (row t k) := by
  have key : ∑ n : Fin 65536, f n = ∑ t : Fin 32, ∑ k : Fin 2048, f (row t k) := by
    rw [← Fintype.sum_prod_type' (fun (t : Fin 32) (k : Fin 2048) => f (row t k))]
    refine (Equiv.sum_comp (finProdFinEquiv : Fin 32 × Fin 2048 ≃ Fin (32 * 2048)) f).symm.trans ?_
    refine Finset.sum_congr rfl ?_
    rintro ⟨t, k⟩ _
    congr 1
    apply Fin.ext
    have ht := t.isLt
    have hk := k.isLt
    simp only [finProdFinEquiv_apply_val, row]
    omega
  rw [key]
  exact Fin.sum_univ_eq_sum_range (fun t => ∑ k : Fin 2048, f (row t k)) 32

/-- The read is the sum of the two running sums, each taken at the end of its run of 16 tiles. -/
theorem read_eq_acc (b : Fin 1024) (j : Fin 128) :
    read A E D C b j = 0 + (acc A E D C 15 b j + acc A E D C 31 b j) := by
  have e15 : acc A E D C 15 b j = ∑ s ∈ Finset.range 16, part A E D C s b j := by
    unfold acc
    refine Finset.sum_congr rfl ?_
    intro s _
    rw [show 15 / 16 * 16 + s = s by omega]
  have e31 : acc A E D C 31 b j = ∑ s ∈ Finset.range 16, part A E D C (16 + s) b j := by
    unfold acc
    refine Finset.sum_congr rfl ?_
    intro s _
    rw [show 31 / 16 * 16 + s = 16 + s by omega]
  rw [zero_add, e15, e31, ← Finset.sum_range_add (fun s => part A E D C s b j) 16 16]
  unfold read part
  exact sum_rows_eq_sum_tiles (fun n => A (ix2 b n) * written A E D C n j)

end whole

/-- On real entries the second and third passes of a three-pass contraction vanish. -/
theorem pass3_eq (x0 : (⟨2, ![1024, 2048]⟩ : Shape).Idx → EReal) (x2 : (⟨2, ![1024, 256]⟩ : Shape).Idx → EReal)
    (h0 : ∀ i, ∃ r : ℝ, x0 i = (r : EReal)) (h2 : ∀ i, ∃ r : ℝ, x2 i = (r : EReal)) (k : Fin 2048) (j : Fin 256) :
    pass3 x0 x2 k j = ∑ b : Fin 1024, x0 (ix2 b k) * x2 (ix2 b j) := by
  have sub0 : ∀ x : EReal, (∃ r : ℝ, x = (r : EReal)) → x - x = 0 := by
    rintro x ⟨r, rfl⟩
    rw [← EReal.coe_sub, sub_self, EReal.coe_zero]
  have e1 : ∑ b : Fin 1024, x0 (ix2 b k) * (x2 (ix2 b j) - x2 (ix2 b j)) = 0 := by
    refine Finset.sum_eq_zero ?_
    intro b _
    rw [sub0 _ (h2 _), mul_zero]
  have e2 : ∑ b : Fin 1024, (x0 (ix2 b k) - x0 (ix2 b k)) * x2 (ix2 b j) = 0 := by
    refine Finset.sum_eq_zero ?_
    intro b _
    rw [sub0 _ (h0 _), zero_mul]
  unfold pass3
  rw [e1, e2, add_zero, add_zero]

end Cert.Spec

end
-- ==== Proof.TileLaws.lean ====
/-
  One tile's step is the running value plus that tile's share of the read.

  When the step's three blocks are the tile's rows of the addressing weights, the tile's rows of the memory, and the
  erase and add vectors laid side by side in a 256-lane row, every entry of the first and third block is a real number,
  so each three-pass contraction collapses to its first pass; that pass is the batch contraction of the erase (first
  half of the lanes) or of the add vector (second half) at the tile's memory row.
-/
import proofs.«131081_j68324339745366_2_alg».proof.Proof.SpecLaws

noncomputable section

namespace Cert.Spec

open Idealize.ShloMosaic Idealize.ShloMosaic.ValueIdx
open scoped BigOperators

section whole

variable (A : (⟨2, ![1024, 65536]⟩ : Shape).Idx → EReal) (E D : (⟨2, ![1024, 128]⟩ : Shape).Idx → EReal)
  (C : (⟨2, ![65536, 128]⟩ : Shape).Idx → EReal)

/-- A step over the blocks of tile `t` adds tile `t`'s share. -/
theorem step_of_blocks (hA : ∀ i, ∃ r : ℝ, A i = (r : EReal)) (hE : ∀ i, ∃ r : ℝ, E i = (r : EReal))
    (hD : ∀ i, ∃ r : ℝ, D i = (r : EReal)) (t : ℕ) (x0 : (⟨2, ![1024, 2048]⟩ : Shape).Idx → EReal)
    (x1 : (⟨2, ![2048, 128]⟩ : Shape).Idx → EReal) (x2 : (⟨2, ![1024, 256]⟩ : Shape).Idx → EReal)
    (h0 : ∀ (b : Fin 1024) (k : Fin 2048), x0 (ix2 b k) = A (ix2 b (row t k.val)))
    (h1 : ∀ (k : Fin 2048) (j : Fin 128), x1 (ix2 k j) = C (ix2 (row t k.val) j))
    (h2l : ∀ (b : Fin 1024) (j : Fin 128), x2 (ix2 b (lo j)) = E (ix2 b j))
    (h2h : ∀ (b : Fin 1024) (j : Fin 128), x2 (ix2 b (hi j)) = D (ix2 b j)) (o : EReal) (b : Fin 1024) (j : Fin 128) :
    step x0 x1 x2 o b j = o + part A E D C t b j := by
  -- every entry of the first block is an entry of `A`
  have r0 : ∀ i, ∃ r : ℝ, x0 i = (r : EReal) := by
    intro i
    obtain ⟨p, q, rfl⟩ : ∃ (p : Fin 1024) (q : Fin 2048), i = ix2 p q := ⟨i 0, i 1, eq_ix2 i⟩
    rw [h0]
    exact hA _
  -- every entry of the third block is an entry of `E` (lanes below 128) or of `D` (the others)
  have r2 : ∀ i, ∃ r : ℝ, x2 i = (r : EReal) := by
    intro i
    obtain ⟨p, q, rfl⟩ : ∃ (p : Fin 1024) (q : Fin 256), i = ix2 p q := ⟨i 0, i 1, eq_ix2 i⟩
    by_cases hq : q.val < 128
    · have e : q = lo ⟨q.val, hq⟩ := Fin.ext rfl
      rw [e, h2l]
      exact hE _
    · have hq2 := q.isLt
      have e : q = hi ⟨q.val - 128, by omega⟩ := Fin.ext (by show q.val = 128 + (q.val - 128); omega)
      rw [e, h2h]
      exact hD _
  -- the first pass against the first half of the lanes is the contraction of `E`, against the second half of `D`
  have pl : ∀ k : Fin 2048, pass3 x0 x2 k (lo j) = agg A E (row t k.val) j := by
    intro k
    rw [pass3_eq x0 x2 r0 r2]
    unfold agg
    refine Finset.sum_congr rfl ?_
    intro b' _
    rw [h0, h2l]
  have ph : ∀ k : Fin 2048, pass3 x0 x2 k (hi j) = agg A D (row t k.val) j := by
    intro k
    rw [pass3_eq x0 x2 r0 r2]
    unfold agg
    refine Finset.sum_congr rfl ?_
    intro b' _
    rw [h0, h2h]
  unfold step part written
  refine congrArg (fun z => o + z) ?_
  refine Finset.sum_congr rfl ?_
  intro k _
  rw [pl, ph, h0, h1]

end whole

end Cert.Spec

end
-- ==== Proof.Accum.lean ====
/-
  What the output block holds after each grid point: the running sum, restarted at every 16th tile, of the tiles'
  shares of the read. One point adds its tile's share to what the block held (or to zero, at a restart), because its
  three input blocks are that tile's rows of the weights and of the memory and the erase and add vectors side by side;
  by induction on the point the block holds `Spec.acc`.
-/
import proofs.«131081_j68324339745366_2_alg».proof.Proof.Cases
import proofs.«131081_j68324339745366_2_alg».proof.Proof.Blocks
import proofs.«131081_j68324339745366_2_alg».proof.Proof.Payload
import proofs.«131081_j68324339745366_2_alg».proof.Proof.TileLaws

set_option maxRecDepth 16384

noncomputable section

namespace Cert.KernelIdeal.Accum

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four argument arrays on core `c`: the addressing weights, the erase and add vectors, the memory. -/
abbrev argA (c : Dev nD) : (⟨2, ![1024, 65536]⟩ : Shape).Idx → EReal := m ((c : Thread nD τ).loc main_arg0)
abbrev argE (c : Dev nD) : (⟨2, ![1024, 128]⟩ : Shape).Idx → EReal := m ((c : Thread nD τ).loc main_arg1)
abbrev argD (c : Dev nD) : (⟨2, ![1024, 128]⟩ : Shape).Idx → EReal := m ((c : Thread nD τ).loc main_arg2)
abbrev argC (c : Dev nD) : (⟨2, ![65536, 128]⟩ : Shape).Idx → EReal := m ((c : Thread nD τ).loc main_arg3)

/-- The weights and the erase and add vectors hold real numbers on core `c`. -/
structure RealArgs (c : Dev nD) : Prop where
  hA : ∀ i, ∃ r : ℝ, argA m c i = (r : EReal)
  hE : ∀ i, ∃ r : ℝ, argE m c i = (r : EReal)
  hD : ∀ i, ∃ r : ℝ, argD m c i = (r : EReal)

/-- One tile's step at point `t`'s blocks: the running value plus tile `t`'s share. -/
theorem tile_step (c : Dev nD) (hr : RealArgs m c) (t : Fin cfg0.N) (o : EReal) (b : Fin 1024) (j : Fin 128) :
    Cert.Spec.step (iblk m c 0 t) (iblk m c 2 t) (iblk m c 1 t) o b j
      = o + Cert.Spec.part (argA m c) (argE m c) (argD m c) (argC m c) t.val b j :=
  Cert.Spec.step_of_blocks (argA m c) (argE m c) (argD m c) (argC m c) hr.hA hr.hE hr.hD t.val
    (iblk m c 0 t) (iblk m c 2 t) (iblk m c 1 t)
    (fun b k => Blocks.iblk0_apply m c t b k) (fun k j => Blocks.iblk2_apply m c t k j)
    (fun b j => Blocks.iblk1_lo m c t b j) (fun b j => Blocks.iblk1_hi m c t b j) o b j

/-- A point that starts a group of 16 tiles leaves its own tile's share. -/
theorem point_first (c : Dev nD) (hr : RealArgs m c) (t : Fin cfg0.N) (h0 : t.val % 16 = 0) (b : Fin 1024) (j : Fin 128) :
    outsAt0 m c t.val t.isLt (ix3 (0 : Fin 1) b j)
      = Cert.Spec.acc (argA m c) (argE m c) (argD m c) (argC m c) t.val b j := by
  have e : outsAt0 m c t.val t.isLt
      = k0_pay2 (F := Ideal) (iblk m c 0 t) (iblk m c 2 t) (iblk m c 1 t) (k0_pay1 (F := Ideal)) :=
    (outsAt0_A m c t h0).trans (Cases.out_A c _ _ _ _ _ _ _ _ _ _ (iblk m c 0 t) (iblk m c 1 t) (iblk m c 2 t))
  refine (congrFun e _).trans ?_
  refine (Payload.pay2_apply (iblk m c 0 t) (iblk m c 2 t) (iblk m c 1 t) (k0_pay1 (F := Ideal)) b j).trans ?_
  rw [Payload.pay1_apply, tile_step m c hr t 0 b j, Cert.Spec.acc_first _ _ _ _ t.val h0 b j]

/-- Any other point adds its tile's share to what the point before left. -/
theorem point_next (c : Dev nD) (hr : RealArgs m c) (t : Fin cfg0.N) (h0 : ¬t.val % 16 = 0) (b : Fin 1024) (j : Fin 128) :
    outsAt0 m c t.val t.isLt (ix3 (0 : Fin 1) b j)
      = outsAt0 m c (t.val - 1) (Nat.lt_of_le_of_lt (Nat.sub_le _ _) t.isLt) (ix3 (0 : Fin 1) b j)
        + Cert.Spec.part (argA m c) (argE m c) (argD m c) (argC m c) t.val b j := by
  have e : outsAt0 m c t.val t.isLt
      = k0_pay2 (F := Ideal) (iblk m c 0 t) (iblk m c 2 t) (iblk m c 1 t)
          (outsAt0 m c (t.val - 1) (Nat.lt_of_le_of_lt (Nat.sub_le _ _) t.isLt)) :=
    (outsAt0_B m c t h0).trans (Cases.out_B c _ _ _ _ _ _ _ _ _ _ (iblk m c 0 t) (iblk m c 1 t) (iblk m c 2 t)
      (outsAt0 m c (t.val - 1) (Nat.lt_of_le_of_lt (Nat.sub_le _ _) t.isLt)))
  refine (congrFun e _).trans ?_
  refine (Payload.pay2_apply (iblk m c 0 t) (iblk m c 2 t) (iblk m c 1 t)
    (outsAt0 m c (t.val - 1) (Nat.lt_of_le_of_lt (Nat.sub_le _ _) t.isLt)) b j).trans ?_
  exact tile_step m c hr t _ b j

/-- After point `n` the output block holds the running sum `Spec.acc n`: by induction on the point. -/
theorem outsAt_apply (c : Dev nD) (hr : RealArgs m c) : ∀ (n : ℕ) (h : n < cfg0.N) (b : Fin 1024) (j : Fin 128),
    outsAt0 m c n h (ix3 (0 : Fin 1) b j) = Cert.Spec.acc (argA m c) (argE m c) (argD m c) (argC m c) n b j
  | 0, h, b, j => point_first m c hr ⟨0, h⟩ rfl b j
  | n + 1, h, b, j => by
    by_cases h0 : (n + 1) % 16 = 0
    · exact point_first m c hr ⟨n + 1, h⟩ h0 b j
    · refine (point_next m c hr ⟨n + 1, h⟩ h0 b j).trans ?_
      show outsAt0 m c n _ (ix3 (0 : Fin 1) b j) + _ = _
      rw [outsAt_apply c hr n (Nat.lt_of_succ_lt h) b j]
      exact (Cert.Spec.acc_next _ _ _ _ n h0 b j).symm

end Cert.KernelIdeal.Accum

end
-- ==== Proof.Final.lean ====
/-
  The kernel program's result. The launch leaves in its [2, 1024, 128] array, on each half, the running sum at the end
  of that half's 16 tiles (the two points that write back cover the array); the program then adds the two halves to
  zero, and the sum of the two running sums is the whole read. So the result buffer ends at `Spec.G` of the arguments.
-/
import proofs.«131081_j68324339745366_2_alg».proof.Proof.Accum
import Idealize.ShloMosaic.PureOps.Ideal.Laws
import Idealize.ShloMosaic.Lib.StableHlo.Run

set_option maxRecDepth 16384

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accum

variable (m : (ℓ : Loc nD τ sig) → Buf (Elt Ideal) ℓ) (ρ : Dev nD → PrngReg)

/-- What the launch leaves in its [2, 1024, 128] output array: on half `h`, the running sum at the end of that half's
    16 tiles. -/
def partials (c : Dev nD) : Buf (Elt Ideal) ((c : Thread nD τ).loc main_v1) :=
  fun i => Cert.Spec.acc (argA m c) (argE m c) (argD m c) (argC m c) (16 * (i 0).val + 15) (i 1) (i 2)

/-- An index of the output array is in point `t`'s block iff each coordinate is in the block's range on its axis. -/
theorem mem_blk3 (t : Fin cfg0.N) (i : S2x1024x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v1).slice (win0_3.rect t)).set ↔ _
  rw [View.set_slice_whole, Rect.mem_set_unit]
  exact Iff.rfl

/-- A point that writes back (the last of its 16 tiles) writes block `t / 16` of `partials`. -/
theorem flushed_eq (c : Dev nD) (hr : RealArgs m c) (t : Fin cfg0.N) (hf : (cfg0.win 3).flush t = true) :
    (dats m 0 c).flushed 3 t = ((cfg0.win 3).blk t).view.read (Elt Ideal) (partials m c) := by
  have h15 : t.val % 16 = 15 := (flush0_3 t).mp hf
  have hN : t.val < 32 := lt_of_lt_of_eq t.isLt N_0
  have hq : t.val / 16 < 2 := by omega
  show (cfg0.win 3).cut (grid0.coords t) ((dats m 0 c).after 3 t) = _
  rw [after0_3]
  funext y
  obtain ⟨u, b, j, rfl⟩ : ∃ (u : Fin 1) (b : Fin 1024) (j : Fin 128), y = ix3 u b j := ⟨y 0, y 1, y 2, eq_ix3 y⟩
  obtain rfl : u = 0 := Subsingleton.elim _ _
  rw [View.read_apply]
  show outsAt0 m c t.val t.isLt (ix3 (0 : Fin 1) b j)
    = partials m c (((cfg0.win 3).blk t).view.emb (ix3 (0 : Fin 1) b j))
  rw [outsAt_apply m c hr t.val t.isLt b j]
  refine Eq.trans ?_ (congrArg (partials m c) (?_ : ix3 (⟨t.val / 16, hq⟩ : Fin 2) b j = _))
  · show _ = Cert.Spec.acc (argA m c) (argE m c) (argD m c) (argC m c) (16 * (t.val / 16) + 15) b j
    rw [show 16 * (t.val / 16) + 15 = t.val by omega]
  · funext a
    apply Fin.ext
    match a with
    | ⟨0, _⟩ => show t.val / 16 = win0_3.index t 0 * 1 + 1 * 0; rw [(Blocks.idx3 t).1]; omega
    | ⟨1, _⟩ => show b.val = win0_3.index t 1 * 1024 + 1 * b.val; rw [(Blocks.idx3 t).2.1]; omega
    | ⟨2, _⟩ => show j.val = win0_3.index t 2 * 128 + 1 * j.val; rw [(Blocks.idx3 t).2.2]; omega

/-- The two write-backs cover the output array, so it ends at `partials`. -/
theorem final3 (c : Dev nD) (hr : RealArgs m c) : (dats m 0 c).arrAt 3 cfg0.N = partials m c :=
  (dats m 0 c).arrAt_eq_of_cover 3 (partials m c) (flushed_eq m c hr) fun i => by
    have h0 : (i 0).val < 2 := (i 0).isLt
    have h1 : (i 1).val < 1024 := (i 1).isLt
    have h2 : (i 2).val < 128 := (i 2).isLt
    have hN : cfg0.N = 32 := N_0
    have ht : 16 * (i 0).val + 15 < cfg0.N := by rw [hN]; omega
    obtain ⟨e0, e1, e2⟩ := Blocks.idx3 ⟨16 * (i 0).val + 15, ht⟩
    refine ⟨⟨16 * (i 0).val + 15, ht⟩, (flush0_3 _).mpr (by show (16 * (i 0).val + 15) % 16 = 15; omega), ?_⟩
    rw [mem_blk3]
    intro a
    match a with
    | ⟨0, _⟩ =>
      show win0_3.index ⟨16 * (i 0).val + 15, ht⟩ 0 * 1 ≤ (i 0).val ∧ (i 0).val < win0_3.index ⟨16 * (i 0).val + 15, ht⟩ 0 * 1 + 1
      rw [e0]; dsimp only; omega
    | ⟨1, _⟩ =>
      show win0_3.index ⟨16 * (i 0).val + 15, ht⟩ 1 * 1024 ≤ (i 1).val ∧ (i 1).val < win0_3.index ⟨16 * (i 0).val + 15, ht⟩ 1 * 1024 + 1024
      rw [e1]; omega
    | ⟨2, _⟩ =>
      show win0_3.index ⟨16 * (i 0).val + 15, ht⟩ 2 * 128 ≤ (i 2).val ∧ (i 2).val < win0_3.index ⟨16 * (i 0).val + 15, ht⟩ 2 * 128 + 128
      rw [e2]; omega

/-- The host's sum over the leading axis of a [2, 1024, 128] array, from zero: at `(b, j)` zero plus the two halves. -/
theorem sum_halves (P : FVec Ideal S2x1024x128 .f32) (b : Fin 1024) (j : Fin 128) :
    Host.reduceAdd (F := Ideal) P (constant S_ .f32 0x00000000#32) Facts₀.reducesTo_S2x1024x128_S1024x128_d0 Facts₀.h_S_ (ix2 b j)
      = 0 + (P (ix3 (0 : Fin 2) b j) + P (ix3 (1 : Fin 2) b j)) := by
  have hR : S2x1024x128.Reduces [0] S1024x128 := by decide
  show Ideal.hostReduceAdd Facts₀.reducesTo_S2x1024x128_S1024x128_d0 P (Ideal.ofBits .f32 0x00000000#32) (ix2 b j) = _
  rw [Ideal.hostReduceAdd_single Facts₀.reducesTo_S2x1024x128_S1024x128_d0 hR P _ (ix2 b j), Ideal.ofBits_zero_f32]
  refine congrArg (0 + ·) ?_
  show ∑ k : Fin 2, P (hR.lift (ix2 b j) k) = _
  rw [Fin.sum_univ_two]
  have e0 : hR.lift (ix2 b j) (0 : Fin 2) = ix3 (0 : Fin 2) b j :=
    funext fun a => Fin.ext (by match a with | ⟨0, _⟩ => rfl | ⟨1, _⟩ => rfl | ⟨2, _⟩ => rfl)
  have e1 : hR.lift (ix2 b j) (1 : Fin 2) = ix3 (1 : Fin 2) b j :=
    funext fun a => Fin.ext (by match a with | ⟨0, _⟩ => rfl | ⟨1, _⟩ => rfl | ⟨2, _⟩ => rfl)
  rw [e0, e1]

/-- The result buffer after the lines that follow the launch: the specification. -/
theorem result_eq (c : Dev nD) (hr : RealArgs m c) :
    Pipeline.afterTail₀ cfgs (dats m) 0 (V0 m) [hostOps1] c main_v2
      = Cert.Spec.G (argA m c) (argE m c) (argD m c) (argC m c) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = partials m c from (Pipeline.withArrays_arr spec0 launch0.win.arr_inj c _ _ 3).trans (final3 m c hr)]
  funext i
  obtain ⟨b, j, rfl⟩ : ∃ (b : Fin 1024) (j : Fin 128), i = ix2 b j := ⟨i 0, i 1, eq_ix2 i⟩
  rw [sum_halves]
  exact (Cert.Spec.read_eq_acc (argA m c) (argE m c) (argD m c) (argC m c) b j).symm

/-- The kernel program's run with the result named: every weakly fair execution terminates with the result buffer at
    the specification of the arguments, the arguments unchanged — where the weights and the two vectors are real. -/
theorem run (hr : ∀ c, RealArgs m c) :
    θ_run defs (onTc (τ := τ) (main (F := Ideal))) ⟨m, fun _ => 0, ρ⟩ fun r => ∀ c : Dev nD,
      r.2.mem ((c.tc : Thread nD τ).loc main_v2) = Cert.Spec.G (argA m c) (argE m c) (argD m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (result_eq m c (hr c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Final

end
-- ==== Proof.lean ====
/-
  A memory of 65536 rows of 128 lanes is rewritten from 1024 batch rows — row `n` becomes
  `C n * (1 - ∑ b, A b n * E b) + ∑ b, A b n * D b` — and read back, `∑ n, A b n * (row n)`.

  The reference does this with three whole contractions. The kernel walks the memory rows in 32 tiles of 2048: a tile's
  step recomputes that tile's rewritten rows (its batch contractions written as three passes, two of them over the
  differences `x - x` that a change of float format would leave, which are zero on finite entries), multiplies by the
  tile's columns of the weights and adds the product into a block that is restarted every 16 tiles; the two blocks are
  added at the end. On the extended reals a sum may be cut into tiles and regrouped, so the two results are equal
  (`Spec.read_eq_acc`); finiteness of the weights and of the erase and add vectors is used exactly where `x - x = 0`.

  The frames of the two kernel programs are the generated ones; the reference's frame is its generated run with the
  result dropped; the two recorded format round trips are the identity on the extended reals.
-/
import proofs.«131081_j68324339745366_2_alg».proof.Defs
import proofs.«131081_j68324339745366_2_alg».proof.Proof.Gen.Kernel
import proofs.«131081_j68324339745366_2_alg».proof.Proof.Gen.Kernel.Skeleton
import proofs.«131081_j68324339745366_2_alg».proof.Proof.Gen.Kernel.Launch
import proofs.«131081_j68324339745366_2_alg».proof.Proof.Gen.Kernel.Points
import proofs.«131081_j68324339745366_2_alg».proof.Proof.Gen.Kernel.Frame
import proofs.«131081_j68324339745366_2_alg».proof.Proof.Gen.KernelIdeal
import proofs.«131081_j68324339745366_2_alg».proof.Proof.Gen.KernelIdeal.Skeleton
import proofs.«131081_j68324339745366_2_alg».proof.Proof.Gen.KernelIdeal.Launch
import proofs.«131081_j68324339745366_2_alg».proof.Proof.Gen.KernelIdeal.Points
import proofs.«131081_j68324339745366_2_alg».proof.Proof.Gen.KernelIdeal.Frame
import proofs.«131081_j68324339745366_2_alg».proof.Proof.Gen.ReferenceIdeal
import proofs.«131081_j68324339745366_2_alg».proof.Proof.Gen.ReferenceIdeal.Run
import proofs.«131081_j68324339745366_2_alg».proof.Proof.Gen.ReferenceIdeal.Read
import proofs.«131081_j68324339745366_2_alg».proof.Proof.Gen.Pre_finite_inputs
import proofs.«131081_j68324339745366_2_alg».proof.Proof.RefValue
import proofs.«131081_j68324339745366_2_alg».proof.Proof.Finite
import proofs.«131081_j68324339745366_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two recorded round trips through the narrower format, of the weights' block and of the side-by-side block,
    are the identity on the extended reals. -/
theorem preserves : Cert.preserves_Kernel_KernelIdeal :=
  ⟨IdealRules.truncf_extf.statement Cert.KernelIdeal.S1024x2048 .f32 .bf16,
    IdealRules.truncf_extf.statement Cert.KernelIdeal.S1024x256 .f32 .bf16⟩

/-- Both programs end at `Spec.G` of the arguments: the kernel's by the running sums over the tiles (finite
    weights, erase and add vectors), the reference's by its three contractions; the arguments agree. -/
theorem algebraic : Cert.algebraic_KernelIdeal_ReferenceIdeal := by
  intro m ρ m' ρ' hpre hagree
  have hr : ∀ c, Cert.KernelIdeal.Accum.RealArgs m c := fun c => by
    obtain ⟨hA, hE, hD, -⟩ := Cert.Finite.entries_real _ _ _ _ (hpre c)
    exact ⟨hA, hE, hD⟩
  refine ⟨fun c => Cert.Spec.G (Cert.KernelIdeal.Accum.argA m c) (Cert.KernelIdeal.Accum.argE m c)
    (Cert.KernelIdeal.Accum.argD m c) (Cert.KernelIdeal.Accum.argC m c), Cert.KernelIdeal.Final.run m ρ hr, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v6_eq _ _ _ _).trans ?_
  rw [Cert.ReferenceIdeal.RefValue.result_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
